-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x2 : Shape := ⟨3, ![4, 8192, 2]⟩
abbrev S_ : Shape := ⟨0, ![]⟩

class Facts : Prop where
  bcast_S_S4x8192x2 : S_.BroadcastsInDim S4x8192x2 (![] : Fin 0 → Fin S4x8192x2.rank)
  reducesTo_S4x8192x2_S_d0_1_2 : S4x8192x2.ReducesTo [0, 1, 2] S_
  h_S_ : 0 < S_.numel

variable [Facts]

def fn {F : FTy → Type} [FloatOps F] (main_arg0 : FVec F S4x8192x2 .f32) (main_arg1 : FVec F S4x8192x2 .f32) : IVec S_ 1 :=
  let main_v0 : FVec F S4x8192x2 .f32 := Host.absf main_arg0
  let main_cst : FVec F S_ .f32 := constant S_ .f32 0x7F800000#32
  let main_v1 : FVec F S4x8192x2 .f32 := broadcastInDim S4x8192x2 ![] bcast_S_S4x8192x2 main_cst
  let main_v2 : IVec S4x8192x2 1 := cmpf .olt main_v0 main_v1
  let main_c : IVec S_ 1 := constantI S_ 1 1#1
  let main_v3 : IVec S_ 1 := (fun x v => Host.reduce IntOp.andi x v reducesTo_S4x8192x2_S_d0_1_2 h_S_) main_v2 main_c
  let main_v4 : FVec F S4x8192x2 .f32 := Host.absf main_arg1
  let main_cst_0 : FVec F S_ .f32 := constant S_ .f32 0x7F800000#32
  let main_v5 : FVec F S4x8192x2 .f32 := broadcastInDim S4x8192x2 ![] bcast_S_S4x8192x2 main_cst_0
  let main_v6 : IVec S4x8192x2 1 := cmpf .olt main_v4 main_v5
  let main_c_1 : IVec S_ 1 := constantI S_ 1 1#1
  let main_v7 : IVec S_ 1 := (fun x v => Host.reduce IntOp.andi x v reducesTo_S4x8192x2_S_d0_1_2 h_S_) main_v6 main_c_1
  let main_v8 : IVec S_ 1 := andi main_v3 main_v7
  main_v8
-- ==== Kernel.lean ====
abbrev S4x8192x2 : Shape := ⟨3, ![4, 8192, 2]⟩
abbrev S4x2x8192 : Shape := ⟨3, ![4, 2, 8192]⟩
abbrev S4x8192 : Shape := ⟨2, ![4, 8192]⟩
abbrev S16x4x8192 : Shape := ⟨3, ![16, 4, 8192]⟩
abbrev S4x2x512 : Shape := ⟨3, ![4, 2, 512]⟩
abbrev S4x2x1024 : Shape := ⟨3, ![4, 2, 1024]⟩
abbrev S4x512 : Shape := ⟨2, ![4, 512]⟩
abbrev S1x4x1024 : Shape := ⟨3, ![1, 4, 1024]⟩
abbrev S4x1x512 : Shape := ⟨3, ![4, 1, 512]⟩
abbrev S4x1x1024 : Shape := ⟨3, ![4, 1, 1024]⟩
abbrev S4x1024 : Shape := ⟨2, ![4, 1024]⟩
abbrev S4x512x1 : Shape := ⟨3, ![4, 512, 1]⟩
abbrev S4x512x1024 : Shape := ⟨3, ![4, 512, 1024]⟩
abbrev S_ : Shape := ⟨0, ![]⟩

abbrev nBuf : Space → Nat
  | .hbm => 17
  | .vmem => 9
  | .smem => 0
  | _ => 0

abbrev bufTy : (tb : Table) → Fin (tcTables nBuf tb) → BufTy
  | .hbm, ⟨0, _⟩ => ⟨S4x8192x2, .f32⟩
  | .hbm, ⟨1, _⟩ => ⟨S4x8192x2, .f32⟩
  | .hbm, ⟨2, _⟩ => ⟨S4x2x8192, .f32⟩
  | .hbm, ⟨3, _⟩ => ⟨S4x2x8192, .f32⟩
  | .hbm, ⟨4, _⟩ => ⟨S4x8192, .f32⟩
  | .hbm, ⟨5, _⟩ => ⟨S16x4x8192, .f32⟩
  | .hbm, ⟨6, _⟩ => ⟨S_, .f32⟩
  | .hbm, ⟨7, _⟩ => ⟨S4x8192, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S4x2x512, .f32⟩
  | .local _ .vmem, ⟨1, _⟩ => ⟨S4x2x512, .f32⟩
  | .local _ .vmem, ⟨2, _⟩ => ⟨S4x2x1024, .f32⟩
  | .local _ .vmem, ⟨3, _⟩ => ⟨S4x2x1024, .f32⟩
  | .local _ .vmem, ⟨4, _⟩ => ⟨S4x512, .f32⟩
  | .local _ .vmem, ⟨5, _⟩ => ⟨S4x512, .f32⟩
  | .local _ .vmem, ⟨6, _⟩ => ⟨S1x4x1024, .f32⟩
  | .local _ .vmem, ⟨7, _⟩ => ⟨S1x4x1024, .f32⟩
  | .local _ .vmem, ⟨8, _⟩ => ⟨S4x512, .f32⟩
  | _, _ => ⟨S4x8192x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v51 : BitVec 1 := Scalar.cmpi .eq arg1 c7_i32
  let v52 : BitVec 32 := Scalar.extui v51
  let c0_i32_16 : BitVec 32 := 0#32
  let v53 : BitVec 1 := Scalar.cmpi .ne v52 c0_i32_16
  v53

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S4x2x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S4x8192x2_S4x2x8192_0_2_1 : S4x8192x2.Transposes [0, 2, 1] S4x2x8192
  inb_S4x512_S4x512_0_0 : ∀ a, (![0, 0] : Fin 2 → Nat) a + S4x512.size a ≤ S4x512.size a
  h_S4x512 : 0 < S4x512.numel
  shapeCasts_S4x512_S4x512 : S4x512.ShapeCasts S4x512
  inb_S4x2x512_S4x2x512_0_0_0 : ∀ a, (![0, 0, 0] : Fin 3 → Nat) a + S4x2x512.size a ≤ S4x2x512.size a
  h_S4x2x512 : 0 < S4x2x512.numel
  shapeCasts_S4x2x512_S4x2x512 : S4x2x512.ShapeCasts S4x2x512
  inb_S4x2x1024_S4x2x1024_0_0_0 : ∀ a, (![0, 0, 0] : Fin 3 → Nat) a + S4x2x1024.size a ≤ S4x2x1024.size a
  h_S4x2x1024 : 0 < S4x2x1024.numel
  shapeCasts_S4x2x1024_S4x2x1024 : S4x2x1024.ShapeCasts S4x2x1024
  slices_S4x2x512_o0_0_0_S4x1x512 : S4x2x512.Slices ![0, 0, 0] S4x1x512
  shapeCasts_S4x1x512_S4x512 : S4x1x512.ShapeCasts S4x512
  slices_S4x2x512_o0_1_0_S4x1x512 : S4x2x512.Slices ![0, 1, 0] S4x1x512
  slices_S4x2x1024_o0_0_0_S4x1x1024 : S4x2x1024.Slices ![0, 0, 0] S4x1x1024
  shapeCasts_S4x1x1024_S4x1024 : S4x1x1024.ShapeCasts S4x1024
  slices_S4x2x1024_o0_1_0_S4x1x1024 : S4x2x1024.Slices ![0, 1, 0] S4x1x1024
  shapeCasts_S4x512_S4x512x1 : S4x512.ShapeCasts S4x512x1
  shapeCasts_S4x1024_S4x1x1024 : S4x1024.ShapeCasts S4x1x1024
  broadcasts_S4x512x1_S4x512x1024 : S4x512x1.Broadcasts S4x512x1024
  broadcasts_S4x1x1024_S4x512x1024 : S4x1x1024.Broadcasts S4x512x1024
  reduces_S4x512x1024_S4x512 : S4x512x1024.Reduces [2] S4x512
  reduces_S4x512x1024_S4x1024 : S4x512x1024.Reduces [1] S4x1024
  shapeCasts_S4x1024_S1x4x1024 : S4x1024.ShapeCasts S1x4x1024
  inb_S1x4x1024_S1x4x1024_0_0_0 : ∀ a, (![0, 0, 0] : Fin 3 → Nat) a + S1x4x1024.size a ≤ S1x4x1024.size a
  h_S1x4x1024 : 0 < S1x4x1024.numel
  reducesTo_S16x4x8192_S4x8192_d0 : S16x4x8192.ReducesTo [0] S4x8192
  h_S_ : 0 < S_.numel
  reducesTo_S4x8192_S_d0_1 : S4x8192.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x2x512.size a ≤ S4x2x8192.size a
  hwx0_0 : ∀ i : grid0.Coords, EltTy.bits .f32 = 32 ∨ (Rect.block (s := S4x2x8192) S4x2x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x2x1024.size a ≤ S4x2x8192.size a
  hwx0_1 : ∀ i : grid0.Coords, EltTy.bits .f32 = 32 ∨ (Rect.block (s := S4x2x8192) S4x2x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x8192.size a
  hwx0_2 : ∀ i : grid0.Coords, EltTy.bits .f32 = 32 ∨ (Rect.block (s := S4x8192) S4x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x1024.size a ≤ S16x4x8192.size a
  hwx0_3 : ∀ i : grid0.Coords, EltTy.bits .f32 = 32 ∨ (Rect.block (s := S16x4x8192) S1x4x1024.size (cc0_transform_3 i) (hinb0_3 i)).WholeWords (EltTy.packing .f32)

variable [Facts₀]

abbrev win0_0 : Pipeline.Window sig grid0 :=
  Pipeline.Window.ofSpec (Memref.whole main_v0) S4x2x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x2x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S4x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x4x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun _ => false | ⟨_ + 4, h⟩ => absurd h (Nat.not_lt.2 (Nat.le_add_left _ _))

class Facts : Prop extends Facts₀ where

variable [Facts]
-- ==== ReferenceIdeal.lean ====
abbrev S4x8192x2 : Shape := ⟨3, ![4, 8192, 2]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x2, .f32⟩
  | .hbm, ⟨1, _⟩ => ⟨S4x8192x2, .f32⟩
  | .hbm, ⟨2, _⟩ => ⟨S4x8192x2, .f32⟩
  | .hbm, ⟨3, _⟩ => ⟨S_, .f32⟩
  | .hbm, ⟨4, _⟩ => ⟨S4x8192, .f32⟩
  | .hbm, ⟨5, _⟩ => ⟨S4x8192x2, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4x8192, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S4x8192x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  reducesTo_S4x8192x2_S4x8192_d2 : S4x8192x2.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S_d0_1 : S4x8192.ReducesTo [0, 1] S_
  dot_S4x8192x2_S4x8192x2_S4x8192x8192_2_2_1_1_0_0_wf : DotDims.WF S4x8192x2 S4x8192x2 S4x8192x8192 [2] [2] [1] [1] [0] [0]

variable [Facts₀]

def dot_S4x8192x2_S4x8192x2_S4x8192x8192_2_2_1_1_0_0 : DotDims S4x8192x2 S4x8192x2 S4x8192x8192 where
  lhsContracting := [2]
  rhsContracting := [2]
  lhsNonContracting := [1]
  rhsNonContracting := [1]
  lhsBatch := [0]
  rhsBatch := [0]
  wf := dot_S4x8192x2_S4x8192x2_S4x8192x8192_2_2_1_1_0_0_wf

class Facts : Prop extends Facts₀ where

variable [Facts]
-- ==== Proof.Body.lean ====
/-
  What one grid step leaves behind, as values.

  A step sees a tile of 512 sources (`x0`) and a tile of 1024 targets (`x1`). It forms the 512 × 1024 table of squared
  distances (the payload `k0_pay4`), its row minima (`k0_pay5`) and its column minima (`k0_pay2`). The running row
  minimum lives in a scratch that survives from step to step: the step replaces it by the smaller of its old contents
  and the new row minima (`k0_pay1`). The three kinds of step differ only in the old contents and in what is handed on:
  * on the first target tile the scratch is first reset to +∞ (`k0_pay3`), so the old contents are +∞;
  * on a middle tile the old contents are what the step before left (`xs0`);
  * on the last tile the updated scratch is also copied to the row-minimum block that is written back.
  On every step the column minima of the table are the block written to the partial column-minimum array.
  Each lemma reads the stores the step made back as one whole-block value; they hold at every float instance.
-/
import proofs.«166247_j28595892257476_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.StepValue
open Cert.KernelIdeal Cert.KernelIdeal.Gen
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First target tile: the scratch ends at min(+∞, row minima of the table). -/
theorem scratch_first (c : Dev nD) (i : grid0.Coords) (arg2 : Memref sig .tc .vmem S4x2x512 .f32) (harg2 : arg2.IsWhole) (arg3 : Memref sig .tc .vmem S4x2x1024 .f32) (harg3 : arg3.IsWhole) (arg4 : Memref sig .tc .vmem S4x512 .f32) (harg4 : arg4.IsWhole) (arg5 : Memref sig .tc .vmem S1x4x1024 .f32) (harg5 : arg5.IsWhole) (arg6 : Memref sig .tc .vmem S4x512 .f32) (harg6 : arg6.IsWhole) (hc0 : cond0_0 i) (hc1 : ¬cond0_1 i) (x0 : Vec F S4x2x512 .f32) (x1 : Vec F S4x2x1024 .f32) :
    sout0_A_0 c i arg2 harg2 arg3 harg3 arg4 harg4 arg5 harg5 arg6 harg6 hc0 hc1 x0 x1 = k0_pay1 (k0_pay5 x0 x1) (k0_pay3 (F := F)) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S4x512) hz2]
  simp only [View.readAt_eq_ld, harg2.read_unread, harg3.read_unread, harg6.read_unread, View.ld_unit_zero (S := S4x2x512) hz3, View.ld_unit_zero (S := S4x2x1024) hz3, View.ld_unit_zero (S := S4x512) hz2, View.readCov_unit_zero (S := S4x512) _ hz2]

/-- First target tile: the partial column-minimum block is the column minima of the table. -/
theorem colblock_first (c : Dev nD) (i : grid0.Coords) (arg2 : Memref sig .tc .vmem S4x2x512 .f32) (harg2 : arg2.IsWhole) (arg3 : Memref sig .tc .vmem S4x2x1024 .f32) (harg3 : arg3.IsWhole) (arg4 : Memref sig .tc .vmem S4x512 .f32) (harg4 : arg4.IsWhole) (arg5 : Memref sig .tc .vmem S1x4x1024 .f32) (harg5 : arg5.IsWhole) (arg6 : Memref sig .tc .vmem S4x512 .f32) (harg6 : arg6.IsWhole) (hc0 : cond0_0 i) (hc1 : ¬cond0_1 i) (x0 : Vec F S4x2x512 .f32) (x1 : Vec F S4x2x1024 .f32) :
    out0_A_3 c i arg2 harg2 arg3 harg3 arg4 harg4 arg5 harg5 arg6 harg6 hc0 hc1 x0 x1 = k0_pay2 (k0_pay4 x0 x1) := by
  unfold out0_A_3
  rw [View.read_writes_eq_canon _ _ _ (cover0_A_3 c i arg2 harg2 arg3 harg3 arg4 harg4 arg5 harg5 arg6 harg6 hc0 hc1 x0 x1)]
  unfold kernelRun0_A
  dsimp only
  sl_unfold_words
  rw [View.canon_unit_zero hz3]
  simp only [View.readAt_eq_ld, harg2.read_unread, harg3.read_unread, View.ld_unit_zero (S := S4x2x512) hz3, View.ld_unit_zero (S := S4x2x1024) hz3]

/-- Middle target tile: the scratch ends at min(old scratch, row minima of the table). -/
theorem scratch_mid (c : Dev nD) (i : grid0.Coords) (arg2 : Memref sig .tc .vmem S4x2x512 .f32) (harg2 : arg2.IsWhole) (arg3 : Memref sig .tc .vmem S4x2x1024 .f32) (harg3 : arg3.IsWhole) (arg4 : Memref sig .tc .vmem S4x512 .f32) (harg4 : arg4.IsWhole) (arg5 : Memref sig .tc .vmem S1x4x1024 .f32) (harg5 : arg5.IsWhole) (arg6 : Memref sig .tc .vmem S4x512 .f32) (harg6 : arg6.IsWhole) (hc0 : ¬cond0_0 i) (hc1 : ¬cond0_1 i) (x0 : Vec F S4x2x512 .f32) (x1 : Vec F S4x2x1024 .f32) (xs0 : Vec F S4x512 .f32) :
    sout0_B_0 c i arg2 harg2 arg3 harg3 arg4 harg4 arg5 harg5 arg6 harg6 hc0 hc1 x0 x1 xs0 = k0_pay1 (k0_pay5 x0 x1) xs0 := by
  unfold sout0_B_0
  rw [View.read_writes_eq_canon _ _ _ (scover0_B_0 c i arg2 harg2 arg3 harg3 arg4 harg4 arg5 harg5 arg6 harg6 hc0 hc1 x0 x1 xs0)]
  unfold kernelRun0_B
  dsimp only
  sl_unfold_words
  rw [View.canon_unit_zero hz2]
  simp only [View.readAt_eq_ld, harg2.read_unread, harg3.read_unread, harg6.read_unread, View.ld_unit_zero (S := S4x2x512) hz3, View.ld_unit_zero (S := S4x2x1024) hz3, View.ld_unit_zero (S := S4x512) hz2, View.readCov_unit_zero (S := S4x512) _ hz2]

/-- Middle target tile: the partial column-minimum block is the column minima of the table. -/
theorem colblock_mid (c : Dev nD) (i : grid0.Coords) (arg2 : Memref sig .tc .vmem S4x2x512 .f32) (harg2 : arg2.IsWhole) (arg3 : Memref sig .tc .vmem S4x2x1024 .f32) (harg3 : arg3.IsWhole) (arg4 : Memref sig .tc .vmem S4x512 .f32) (harg4 : arg4.IsWhole) (arg5 : Memref sig .tc .vmem S1x4x1024 .f32) (harg5 : arg5.IsWhole) (arg6 : Memref sig .tc .vmem S4x512 .f32) (harg6 : arg6.IsWhole) (hc0 : ¬cond0_0 i) (hc1 : ¬cond0_1 i) (x0 : Vec F S4x2x512 .f32) (x1 : Vec F S4x2x1024 .f32) (xs0 : Vec F S4x512 .f32) :
    out0_B_3 c i arg2 harg2 arg3 harg3 arg4 harg4 arg5 harg5 arg6 harg6 hc0 hc1 x0 x1 xs0 = k0_pay2 (k0_pay4 x0 x1) := by
  unfold out0_B_3
  rw [View.read_writes_eq_canon _ _ _ (cover0_B_3 c i arg2 harg2 arg3 harg3 arg4 harg4 arg5 harg5 arg6 harg6 hc0 hc1 x0 x1 xs0)]
  unfold kernelRun0_B
  dsimp only
  sl_unfold_words
  rw [View.canon_unit_zero hz3]
  simp only [View.readAt_eq_ld, harg2.read_unread, harg3.read_unread, View.ld_unit_zero (S := S4x2x512) hz3, View.ld_unit_zero (S := S4x2x1024) hz3]

/-- Last target tile: the scratch ends at min(old scratch, row minima of the table). -/
theorem scratch_last (c : Dev nD) (i : grid0.Coords) (arg2 : Memref sig .tc .vmem S4x2x512 .f32) (harg2 : arg2.IsWhole) (arg3 : Memref sig .tc .vmem S4x2x1024 .f32) (harg3 : arg3.IsWhole) (arg4 : Memref sig .tc .vmem S4x512 .f32) (harg4 : arg4.IsWhole) (arg5 : Memref sig .tc .vmem S1x4x1024 .f32) (harg5 : arg5.IsWhole) (arg6 : Memref sig .tc .vmem S4x512 .f32) (harg6 : arg6.IsWhole) (hc0 : ¬cond0_0 i) (hc1 : cond0_1 i) (x0 : Vec F S4x2x512 .f32) (x1 : Vec F S4x2x1024 .f32) (xs0 : Vec F S4x512 .f32) :
    sout0_C_0 c i arg2 harg2 arg3 harg3 arg4 harg4 arg5 harg5 arg6 harg6 hc0 hc1 x0 x1 xs0 = k0_pay1 (k0_pay5 x0 x1) xs0 := by
  unfold sout0_C_0
  rw [View.read_writes_eq_canon _ _ _ (scover0_C_0 c i arg2 harg2 arg3 harg3 arg4 harg4 arg5 harg5 arg6 harg6 hc0 hc1 x0 x1 xs0)]
  unfold kernelRun0_C
  dsimp only
  sl_unfold_words
  rw [View.canon_unit_zero hz2]
  simp only [View.readAt_eq_ld, harg2.read_unread, harg3.read_unread, harg6.read_unread, View.ld_unit_zero (S := S4x2x512) hz3, View.ld_unit_zero (S := S4x2x1024) hz3, View.ld_unit_zero (S := S4x512) hz2, View.readCov_unit_zero (S := S4x512) _ hz2]

/-- Last target tile: the row-minimum block written back is the updated scratch. -/
theorem rowblock_last (c : Dev nD) (i : grid0.Coords) (arg2 : Memref sig .tc .vmem S4x2x512 .f32) (harg2 : arg2.IsWhole) (arg3 : Memref sig .tc .vmem S4x2x1024 .f32) (harg3 : arg3.IsWhole) (arg4 : Memref sig .tc .vmem S4x512 .f32) (harg4 : arg4.IsWhole) (arg5 : Memref sig .tc .vmem S1x4x1024 .f32) (harg5 : arg5.IsWhole) (arg6 : Memref sig .tc .vmem S4x512 .f32) (harg6 : arg6.IsWhole) (hc0 : ¬cond0_0 i) (hc1 : cond0_1 i) (x0 : Vec F S4x2x512 .f32) (x1 : Vec F S4x2x1024 .f32) (xs0 : Vec F S4x512 .f32) :
    out0_C_2 c i arg2 harg2 arg3 harg3 arg4 harg4 arg5 harg5 arg6 harg6 hc0 hc1 x0 x1 xs0 = k0_pay1 (k0_pay5 x0 x1) xs0 := by
  unfold out0_C_2
  rw [View.read_writes_eq_canon _ _ _ (cover0_C_2 c i arg2 harg2 arg3 harg3 arg4 harg4 arg5 harg5 arg6 harg6 hc0 hc1 x0 x1 xs0)]
  unfold kernelRun0_C
  dsimp only
  sl_unfold_words
  rw [View.canon_unit_zero hz2]
  simp only [View.readAt_eq_ld, harg2.read_unread, harg3.read_unread, harg6.read_unread, View.ld_unit_zero (S := S4x2x512) hz3, View.ld_unit_zero (S := S4x2x1024) hz3, View.ld_unit_zero (S := S4x512) hz2, View.readCov_unit_zero (S := S4x512) _ hz2]

/-- Last target tile: the partial column-minimum block is the column minima of the table. -/
theorem colblock_last (c : Dev nD) (i : grid0.Coords) (arg2 : Memref sig .tc .vmem S4x2x512 .f32) (harg2 : arg2.IsWhole) (arg3 : Memref sig .tc .vmem S4x2x1024 .f32) (harg3 : arg3.IsWhole) (arg4 : Memref sig .tc .vmem S4x512 .f32) (harg4 : arg4.IsWhole) (arg5 : Memref sig .tc .vmem S1x4x1024 .f32) (harg5 : arg5.IsWhole) (arg6 : Memref sig .tc .vmem S4x512 .f32) (harg6 : arg6.IsWhole) (hc0 : ¬cond0_0 i) (hc1 : cond0_1 i) (x0 : Vec F S4x2x512 .f32) (x1 : Vec F S4x2x1024 .f32) (xs0 : Vec F S4x512 .f32) :
    out0_C_3 c i arg2 harg2 arg3 harg3 arg4 harg4 arg5 harg5 arg6 harg6 hc0 hc1 x0 x1 xs0 = k0_pay2 (k0_pay4 x0 x1) := by
  unfold out0_C_3
  rw [View.read_writes_eq_canon _ _ _ (cover0_C_3 c i arg2 harg2 arg3 harg3 arg4 harg4 arg5 harg5 arg6 harg6 hc0 hc1 x0 x1 xs0)]
  unfold kernelRun0_C
  dsimp only
  sl_unfold_words
  rw [View.canon_unit_zero hz3]
  simp only [View.readAt_eq_ld, harg2.read_unread, harg3.read_unread, View.ld_unit_zero (S := S4x2x512) hz3, View.ld_unit_zero (S := S4x2x1024) hz3]

end Cert.KernelIdeal.StepValue

end
-- ==== Proof.Literals.lean ====
/-
  The float literals the two programs spell, as the extended reals their words denote: the kernel scales the
  target coordinates by -2, the reference doubles the inner product by 2, and every minimum starts from +∞.
  One module evaluates them all, so that no other module unfolds a word.
-/
import Idealize.ShloMosaic.PureOps.Ideal

noncomputable section

namespace Cert.Chamfer.Lit

open Idealize.ShloMosaic

/-- The word of `-2.0` denotes the real -2. -/
theorem neg_two : Ideal.ofBits .f32 0xC0000000#32 = ((-2 : ℝ) : EReal) := by
  simp [Ideal.ofBits, Ideal.ieee, -EReal.coe_mul]; norm_num

/-- The word of `2.0` denotes the real 2. -/
theorem two : Ideal.ofBits .f32 0x40000000#32 = ((2 : ℝ) : EReal) := by
  simp [Ideal.ofBits, Ideal.ieee, -EReal.coe_mul]; norm_num

/-- The word of `+0.0` denotes 0. -/
theorem zero : Ideal.ofBits .f32 0x00000000#32 = 0 := by
  simp [Ideal.ofBits, Ideal.ieee]

/-- The all-ones exponent with a zero fraction and a clear sign denotes +∞, the neutral element of `min`. -/
theorem inf : Ideal.ofBits .f32 0x7F800000#32 = ⊤ := by
  simp [Ideal.ofBits, Ideal.ieee]

end Cert.Chamfer.Lit

end
-- ==== Proof.Spec.lean ====
/-
  The mathematics of the Chamfer distance between two clouds of planar points, free of any program.

  For a source point x = (x₀, x₁) and a target point y = (y₀, y₁) the squared distance is written in two
  arrangements: |x|² + |y|² + x₀·(−2·y₀) + x₁·(−2·y₁), and (0 + Σₖ xₖ²) + (0 + Σₖ yₖ²) − 2·Σₖ xₖ·yₖ. On real
  coordinates they are the same number (`distRef_eq_dist`); at an infinite coordinate they need not be, so the
  identity is stated for clouds whose coordinates are all real.

  The result is built from two minima: for every source point the distance to its nearest target (`rowMin`) and for
  every target the distance to its nearest source (`colMin`). A minimum over a finite range is an infimum, and an
  infimum is determined by the lower bounds it admits: `z ≤ ⨅ f ↔ ∀ k, z ≤ f k`. Every regrouping below is proved
  through that property, with no arithmetic on the values:
  * a fold of `min` from +∞ over a finite range is the infimum (`fold_min_eq_iInf`);
  * the 8192 sources are 16 tiles of 512, so the infimum over sources is the infimum over tiles of the infima
    inside a tile (`iInf_rowAt`);
  * the 8192 targets are 8 tiles of 1024, and the infimum over the first `k + 1` tiles is the smaller of the infimum
    over the first `k` and the infimum inside tile `k` (`minUpTo_succ`); over no tile it is +∞ and over all eight it
    is the infimum over all targets.
-/
import Idealize.ShloMosaic.PureOps.Ideal
import Idealize.ShloMosaic.Lib.ValueIdx
import proofs.«166247_j28595892257476_2_alg».proof.Proof.Literals

noncomputable section

open scoped BigOperators

namespace Cert.Chamfer

open Idealize.ShloMosaic Idealize.ShloMosaic.ValueIdx

/-- A cloud: four batches of 8192 planar points, coordinates in the extended reals. -/
abbrev Cloud : Type := (⟨3, ![4, 8192, 2]⟩ : Shape).Idx → EReal

/-- Every coordinate of the cloud is a real number. -/
def Cloud.Real (P : Cloud) : Prop := ∀ i, ∃ r : ℝ, P i = (r : EReal)

/-- The squared distance from source `n` to target `m` of batch `b`, arranged as
    (|x|² + |y|²) + x₀·(−2·y₀) + x₁·(−2·y₁). -/
def dist (P Q : Cloud) (b : Fin 4) (n m : Fin 8192) : EReal :=
  P (ix3 b n (0 : Fin 2)) * P (ix3 b n (0 : Fin 2)) + P (ix3 b n (1 : Fin 2)) * P (ix3 b n (1 : Fin 2))
    + (Q (ix3 b m (0 : Fin 2)) * Q (ix3 b m (0 : Fin 2)) + Q (ix3 b m (1 : Fin 2)) * Q (ix3 b m (1 : Fin 2)))
    + P (ix3 b n (0 : Fin 2)) * (Ideal.ofBits .f32 0xC0000000#32 * Q (ix3 b m (0 : Fin 2)))
    + P (ix3 b n (1 : Fin 2)) * (Ideal.ofBits .f32 0xC0000000#32 * Q (ix3 b m (1 : Fin 2)))

/-- The same squared distance arranged as (0 + Σₖ xₖ²) + (0 + Σₖ yₖ²) − 2·Σₖ xₖ·yₖ. -/
def distRef (P Q : Cloud) (b : Fin 4) (n m : Fin 8192) : EReal :=
  (Ideal.ofBits .f32 0x00000000#32 + ∑ k : Fin 2, P (ix3 b n k) * P (ix3 b n k))
    + (Ideal.ofBits .f32 0x00000000#32 + ∑ k : Fin 2, Q (ix3 b m k) * Q (ix3 b m k))
    - Ideal.ofBits .f32 0x40000000#32 * ∑ k : Fin 2, P (ix3 b n k) * Q (ix3 b m k)

/-- On real coordinates the two arrangements are one number: expand both and compare in ℝ. -/
theorem distRef_eq_dist {P Q : Cloud} (hP : P.Real) (hQ : Q.Real) (b : Fin 4) (n m : Fin 8192) :
    distRef P Q b n m = dist P Q b n m := by
  obtain ⟨p0, e0⟩ := hP (ix3 b n (0 : Fin 2))
  obtain ⟨p1, e1⟩ := hP (ix3 b n (1 : Fin 2))
  obtain ⟨q0, f0⟩ := hQ (ix3 b m (0 : Fin 2))
  obtain ⟨q1, f1⟩ := hQ (ix3 b m (1 : Fin 2))
  unfold distRef dist
  rw [Fin.sum_univ_two, Fin.sum_univ_two, Fin.sum_univ_two, e0, e1, f0, f1, Lit.zero, Lit.two, Lit.neg_two]
  simp only [zero_add, ← EReal.coe_mul, ← EReal.coe_add, ← EReal.coe_sub]
  congr 1
  ring

/-- For each source point, the squared distance to its nearest target. -/
def rowMin (P Q : Cloud) : (⟨2, ![4, 8192]⟩ : Shape).Idx → EReal :=
  fun i => ⨅ m : Fin 8192, dist P Q (i 0) (i 1) m

/-- For each target point, the squared distance to its nearest source. -/
def colMin (P Q : Cloud) : (⟨2, ![4, 8192]⟩ : Shape).Idx → EReal :=
  fun i => ⨅ n : Fin 8192, dist P Q (i 0) n (i 1)

/-- A fold of `min` from +∞ over a whole finite range is the infimum over the range. -/
theorem fold_min_eq_iInf {ι : Type} [Fintype ι] (f : ι → EReal) :
    (Finset.univ : Finset ι).fold min ⊤ f = ⨅ k, f k :=
  eq_of_forall_le_iff fun z => by
    rw [Finset.le_fold_min, le_iInf_iff]
    exact ⟨fun h k => h.2 k (Finset.mem_univ k), fun h => ⟨le_top, fun k _ => h k⟩⟩

/-! ## The tilings -/

/-- Source `r` of row tile `i`: the tiles hold 512 consecutive sources. -/
def rowAt (i : Fin 16) (r : Fin 512) : Fin 8192 :=
  ⟨512 * i.val + r.val, by have := i.isLt; have := r.isLt; omega⟩

/-- Target `q` of column tile `j`: the tiles hold 1024 consecutive targets. -/
def colAt (j : Fin 8) (q : Fin 1024) : Fin 8192 :=
  ⟨1024 * j.val + q.val, by have := j.isLt; have := q.isLt; omega⟩

theorem exists_rowAt (n : Fin 8192) : ∃ (i : Fin 16) (r : Fin 512), n = rowAt i r :=
  ⟨⟨n.val / 512, by have := n.isLt; omega⟩, ⟨n.val % 512, by omega⟩, Fin.ext (by show n.val = 512 * (n.val / 512) + n.val % 512; omega)⟩

/-- The infimum over all sources is the infimum over the tiles of the infima inside a tile. -/
theorem iInf_rowAt (f : Fin 8192 → EReal) : (⨅ i : Fin 16, ⨅ r : Fin 512, f (rowAt i r)) = ⨅ n, f n :=
  eq_of_forall_le_iff fun z => by
    simp only [le_iInf_iff]
    exact ⟨fun h n => by obtain ⟨i, r, rfl⟩ := exists_rowAt n; exact h i r, fun h i r => h _⟩

/-- The infimum of `f` over the targets of the first `k` column tiles. -/
def minUpTo (f : Fin 8192 → EReal) (k : Nat) : EReal := ⨅ m : Fin 8192, ⨅ _ : m.val < 1024 * k, f m

theorem le_minUpTo (f : Fin 8192 → EReal) (k : Nat) (z : EReal) :
    z ≤ minUpTo f k ↔ ∀ m : Fin 8192, m.val < 1024 * k → z ≤ f m := by
  unfold minUpTo; simp only [le_iInf_iff]

/-- Over no tile the infimum is +∞. -/
theorem minUpTo_zero (f : Fin 8192 → EReal) : minUpTo f 0 = ⊤ :=
  top_unique ((le_minUpTo f 0 ⊤).2 fun m hm => absurd hm (by omega))

/-- One more tile: the smaller of what the earlier tiles gave and the infimum inside the new tile. -/
theorem minUpTo_succ (f : Fin 8192 → EReal) (k : Nat) (hk : k < 8) :
    minUpTo f (k + 1) = min (minUpTo f k) (⨅ q : Fin 1024, f (colAt ⟨k, hk⟩ q)) :=
  eq_of_forall_le_iff fun z => by
    rw [le_min_iff, le_minUpTo, le_minUpTo, le_iInf_iff]
    constructor
    · intro h
      exact ⟨fun m hm => h m (by omega), fun q => h _ (by show 1024 * k + q.val < 1024 * (k + 1); have := q.isLt; omega)⟩
    · rintro ⟨h1, h2⟩ m hm
      by_cases hlt : m.val < 1024 * k
      · exact h1 m hlt
      · have e : m = colAt ⟨k, hk⟩ ⟨m.val - 1024 * k, by omega⟩ :=
          Fin.ext (by show m.val = 1024 * k + (m.val - 1024 * k); omega)
        rw [e]; exact h2 _

/-- Over all eight tiles it is the infimum over all targets. -/
theorem minUpTo_eight (f : Fin 8192 → EReal) : minUpTo f 8 = ⨅ m, f m :=
  eq_of_forall_le_iff fun z => by
    rw [le_minUpTo, le_iInf_iff]
    exact ⟨fun h m => h m (by have := m.isLt; omega), fun h m _ => h m⟩

end Cert.Chamfer

end
-- ==== Proof.Layout.lean ====
/-
  Re-laid arrays and one-axis minima read at an index, for any extents.

  A table `T[a, b, c]` is built from a column `u[a, b]` and a row `w[a, c]` by viewing `u` as `[a, b, 1]`, `w` as
  `[a, 1, c]` and repeating each along its unit axis: entry `(i, j, k)` of the repeated column is `u (i, j)`, of the
  repeated row `w (i, k)`. Coordinate `d` of a stack of planar points `[a, 2, n]` is its slice at offset `d` along the
  middle axis, viewed as `[a, n]`. A view keeps the row-major position, a repetition reads the unit axis at 0, a slice
  shifts by its offset: each lemma below is one of these, stated at coordinates.

  A minimum along one axis, started from +∞, is the infimum over that axis's coordinate of the entries obtained by
  inserting the coordinate into the result index (`Shape.Reduces.lift`) — the same whether the vector unit or the
  host takes it.
-/
import Idealize.ShloMosaic.Lib.Pipeline.Value
import Idealize.ShloMosaic.Lib.ValueIdx
import Idealize.ShloMosaic.Lib.ValueLayout
import Idealize.ShloMosaic.PureOps.Ideal.Laws
import proofs.«166247_j28595892257476_2_alg».proof.Proof.Spec

noncomputable section

namespace Cert.Chamfer.Layout

open Idealize.ShloMosaic Idealize.ShloMosaic.ValueIdx

variable {α : Type}

/-! ## Views -/

/-- `[a, b]` viewed as `[a, b, 1]`. -/
theorem view_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu]; omega)

/-- `[a, b]` viewed as `[a, 1, b]`. -/
theorem view_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- `[a, 1, b]` viewed as `[a, b]`. -/
theorem view_a1b_ab {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-! ## Repetitions along a unit axis -/

/-- `[a, b, 1]` repeated along its last axis to `[a, b, c]`. -/
theorem rep_ab1_abc {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- `[a, 1, c]` repeated along its middle axis to `[a, b, c]`. -/
theorem rep_a1c_abc {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-! ## The two coordinates of a stack of planar points -/

/-- The slice at offset 0 along the middle axis of `[a, 2, n]` is coordinate 0. -/
theorem coord0 {a n : ℕ} (X : (⟨3, ![a, 2, n]⟩ : Shape).Idx → α)
    (h : (⟨3, ![a, 2, n]⟩ : Shape).Slices ![0, 0, 0] ⟨3, ![a, 1, n]⟩) (i : Fin a) (u : Fin 1) (e : Fin n) :
    extractStridedSlice ⟨3, ![a, 1, n]⟩ ![0, 0, 0] X h (ix3 i u e) = X (ix3 i (0 : Fin 2) e) :=
  slice3_axis1_apply 0 X h i u e 0 (by show 0 = 0 + u.val; omega)

/-- The slice at offset 1 along the middle axis of `[a, 2, n]` is coordinate 1. -/
theorem coord1 {a n : ℕ} (X : (⟨3, ![a, 2, n]⟩ : Shape).Idx → α)
    (h : (⟨3, ![a, 2, n]⟩ : Shape).Slices ![0, 1, 0] ⟨3, ![a, 1, n]⟩) (i : Fin a) (u : Fin 1) (e : Fin n) :
    extractStridedSlice ⟨3, ![a, 1, n]⟩ ![0, 1, 0] X h (ix3 i u e) = X (ix3 i (1 : Fin 2) e) :=
  slice3_axis1_apply 1 X h i u e 1 (by show 1 = 1 + u.val; omega)

/-! ## A minimum along one axis -/

/-- The vector unit's minimum along one axis, started from the word of +∞. -/
theorem vecMin_single {s t : Shape} {a : Fin s.rank} (v : FVec Ideal s .f32) (h : s.Reduces [a] t)
    (hφ : FKind.Formats .f32) (hacc : (0x7F800000#32 : BitVec 32) = FKind.minimumf.neutral .f32 hφ) (j : t.Idx) :
    multiReduction .minimumf [a] t v 0x7F800000#32 h hφ hacc j = ⨅ k : Fin (s.size a), v (h.lift j k) := by
  rw [multiReduction_minimumf_eq_fold, h.fold_filter_drop_single]
  show (Finset.univ : Finset (Fin (s.size a))).fold min (Ideal.ofBits .f32 0x7F800000#32) (fun k => v (h.lift j k)) = _
  rw [Lit.inf]
  exact fold_min_eq_iInf _

/-- The host's minimum along one axis, started from a scalar that is +∞. -/
theorem hostMin_single {s t u : Shape} {a : Fin s.rank} (x : s.Idx → EReal) (init : u.Idx → EReal)
    (h' : s.ReducesTo [a] t) (h : s.Reduces [a] t) (hu : 0 < u.numel) (hinit : init (Shape.Idx.first hu) = ⊤) (j : t.Idx) :
    Host.reduce (FloatOps.minimumf (F := Ideal) (φ := .f32)) x init h' hu j = ⨅ k : Fin (s.size a), x (h.lift j k) := by
  rw [Host.reduce_eq_fold_single _ x init h' h hu j, hinit]
  exact fold_min_eq_iInf _

end Cert.Chamfer.Layout

end
-- ==== Proof.Payload.lean ====
/-
  One grid step's arithmetic, entry by entry, over the extended reals.

  A step holds a tile of 512 sources and a tile of 1024 targets, each stored with the coordinate axis in the middle
  (`[batch, coordinate, point]`). Entry `(b, r, q)` of its distance table is the squared distance from source `r` to
  target `q` of batch `b`, in the arrangement (|x|² + |y|²) + x₀·(−2·y₀) + x₁·(−2·y₁) (`table_apply`). The table's row
  minima are infima over the 1024 targets (`rowmin_apply`), its column minima, stored with a leading unit axis, infima
  over the 512 sources (`colmin_apply`). The accumulator update is the entrywise smaller of old and new
  (`update_apply`), and the reset value is +∞ everywhere (`reset_apply`).
-/
import proofs.«166247_j28595892257476_2_alg».proof.Proof.Gen.KernelIdeal.Skeleton
import proofs.«166247_j28595892257476_2_alg».proof.Proof.Layout

noncomputable section

namespace Cert.KernelIdeal.TileValue

open Idealize.ShloMosaic Idealize.ShloMosaic.ValueIdx
open Cert.KernelIdeal Cert.KernelIdeal.Gen Cert.Chamfer Cert.Chamfer.Layout

/-- The squared distance from source `r` of a source tile to target `q` of a target tile, batch `b`. -/
def tileDist (x0 : FVec Ideal S4x2x512 .f32) (x1 : FVec Ideal S4x2x1024 .f32) (b : Fin 4) (r : Fin 512) (q : Fin 1024) : EReal :=
  x0 (ix3 b (0 : Fin 2) r) * x0 (ix3 b (0 : Fin 2) r) + x0 (ix3 b (1 : Fin 2) r) * x0 (ix3 b (1 : Fin 2) r)
    + (x1 (ix3 b (0 : Fin 2) q) * x1 (ix3 b (0 : Fin 2) q) + x1 (ix3 b (1 : Fin 2) q) * x1 (ix3 b (1 : Fin 2) q))
    + x0 (ix3 b (0 : Fin 2) r) * (Ideal.ofBits .f32 0xC0000000#32 * x1 (ix3 b (0 : Fin 2) q))
    + x0 (ix3 b (1 : Fin 2) r) * (Ideal.ofBits .f32 0xC0000000#32 * x1 (ix3 b (1 : Fin 2) q))

/-- The distance table at `(b, r, q)`. -/
theorem table_apply (x0 : FVec Ideal S4x2x512 .f32) (x1 : FVec Ideal S4x2x1024 .f32) (b : Fin 4) (r : Fin 512) (q : Fin 1024) :
    k0_pay4 (F := Ideal) x0 x1 (ix3 b r q) = tileDist x0 x1 b r q := by
  unfold k0_pay4 tileDist
  simp only [addf_apply, mulf_apply, broadcast_apply, rep_ab1_abc, rep_a1c_abc, view_ab_ab1, view_ab_a1b, view_a1b_ab,
    coord0, coord1, shapeCast_self]
  rfl

/-- The table's row minima: for source `r`, the infimum over the tile's targets. -/
theorem rowmin_apply (x0 : FVec Ideal S4x2x512 .f32) (x1 : FVec Ideal S4x2x1024 .f32) (b : Fin 4) (r : Fin 512) :
    k0_pay5 (F := Ideal) x0 x1 (ix2 b r) = ⨅ q : Fin 1024, tileDist x0 x1 b r q := by
  unfold k0_pay5
  dsimp only
  refine (vecMin_single (k0_pay4 (F := Ideal) x0 x1) _ _ _ (ix2 b r)).trans ?_
  exact iInf_congr fun q => (congrArg (k0_pay4 (F := Ideal) x0 x1) (funext fun ax => Fin.ext (by
    match ax with | ⟨0, _⟩ => rfl | ⟨1, _⟩ => rfl | ⟨2, _⟩ => rfl))).trans (table_apply x0 x1 b r q)

/-- The column minima of a table, stored with a leading unit axis: for target `q`, the infimum over the tile's sources. -/
theorem colmin_apply (v : FVec Ideal S4x512x1024 .f32) (u : Fin 1) (b : Fin 4) (q : Fin 1024) :
    k0_pay2 (F := Ideal) v (ix3 u b q) = ⨅ r : Fin 512, v (ix3 b r q) := by
  unfold k0_pay2
  dsimp only
  refine (shapeCast_ab_1ab_apply _ _ u b q).trans ?_
  refine (vecMin_single v _ _ _ (ix2 b q)).trans ?_
  exact iInf_congr fun r => congrArg v (funext fun ax => Fin.ext (by
    match ax with | ⟨0, _⟩ => rfl | ⟨1, _⟩ => rfl | ⟨2, _⟩ => rfl))

/-- The accumulator update: the smaller of the old entry and the new row minimum. -/
theorem update_apply (v42 v43 : FVec Ideal S4x512 .f32) (i : S4x512.Idx) :
    k0_pay1 (F := Ideal) v42 v43 i = min (v43 i) (v42 i) := by
  unfold k0_pay1
  simp only [shapeCast_self]
  rfl

/-- The reset value: +∞ at every entry. -/
theorem reset_apply (i : S4x512.Idx) : k0_pay3 (F := Ideal) i = ⊤ := by
  unfold k0_pay3
  simp only [shapeCast_self, broadcast_apply]
  exact Lit.inf

end Cert.KernelIdeal.TileValue

end
-- ==== Proof.Blocks.lean ====
/-
  What a grid step's two input tiles are, in terms of the argument arrays.

  Before the grid runs, each cloud `[batch, point, coordinate]` is rearranged to `[batch, coordinate, point]`. Grid step
  `t` of the 16 × 8 grid works on row tile `t / 8` of the rearranged sources and column tile `t % 8` of the rearranged
  targets. So entry `(b, d, r)` of the step's source tile is coordinate `d` of source `512·(t/8) + r` of batch `b`, and
  entry `(b, d, q)` of its target tile is coordinate `d` of target `1024·(t%8) + q`. Hence the distance table the step
  forms is the tile `(t/8, t%8)` of the whole 8192 × 8192 table of squared distances (`tile_dist_eq`).
-/
import proofs.«166247_j28595892257476_2_alg».proof.Proof.Gen.KernelIdeal.Frame
import Idealize.ShloMosaic.Lib.Pipeline.Value
import Idealize.ShloMosaic.Lib.ValueLayout
import Idealize.ShloMosaic.Lib.StableHlo.Run
import Idealize.ShloMosaic.Lib.Tactic
import proofs.«166247_j28595892257476_2_alg».proof.Proof.Payload

set_option maxRecDepth 16384

noncomputable section

open Idealize.ShloMosaic Idealize.ShloMosaic.TcCoe Idealize.SL.Sem
open Idealize.ShloMosaic.Pipeline (Dat)

namespace Cert.KernelIdeal.BlockValue

open Cert.KernelIdeal Cert.KernelIdeal.Gen Idealize.ShloMosaic.ValueIdx Cert.Chamfer Cert.KernelIdeal.TileValue

variable (m : (ℓ : Loc nD τ sig) → Buf (Elt Ideal) ℓ)

/-- The row tile and the column tile of grid step `t`. -/
def rowTile (t : Fin cfg0.N) : Fin 16 := ⟨t.val / 8, by have := t.isLt; have hN : cfg0.N = 128 := N_0; omega⟩
def colTile (t : Fin cfg0.N) : Fin 8 := ⟨t.val % 8, by omega⟩

/-- The sources as the grid finds them: argument 0 with its last two axes swapped. -/
theorem V_sources (c : Dev nD) :
    (V m c main_v0 : S4x2x8192.Idx → EReal)
      = transpose S4x2x8192 [0, 2, 1] (m ((c : Thread nD τ).loc main_arg0)) transposes_S4x8192x2_S4x2x8192_0_2_1 := by
  show StableHlo.after hostOps0 (fun b => m (c, b)) (Proc.devRef .tc main_v0) = _
  after_results

/-- The targets as the grid finds them: argument 1 with its last two axes swapped. -/
theorem V_targets (c : Dev nD) :
    (V m c main_v1 : S4x2x8192.Idx → EReal)
      = transpose S4x2x8192 [0, 2, 1] (m ((c : Thread nD τ).loc main_arg1)) transposes_S4x8192x2_S4x2x8192_0_2_1 := by
  show StableHlo.after hostOps0 (fun b => m (c, b)) (Proc.devRef .tc main_v1) = _
  after_results

/-- Step `t`'s source tile is tile `t / 8` along the point axis, whole along the others. -/
theorem idx_sources : ∀ t : Fin cfg0.N,
    win0_0.index t (0 : Fin 3) = 0 ∧ win0_0.index t (1 : Fin 3) = 0 ∧ win0_0.index t (2 : Fin 3) = t.val / 8 :=
  (by decide +kernel : ∀ t : Fin grid0.N,
    win0_0.index t (0 : Fin 3) = 0 ∧ win0_0.index t (1 : Fin 3) = 0 ∧ win0_0.index t (2 : Fin 3) = t.val / 8)

/-- Step `t`'s target tile is tile `t % 8` along the point axis, whole along the others. -/
theorem idx_targets : ∀ t : Fin cfg0.N,
    win0_1.index t (0 : Fin 3) = 0 ∧ win0_1.index t (1 : Fin 3) = 0 ∧ win0_1.index t (2 : Fin 3) = t.val % 8 :=
  (by decide +kernel : ∀ t : Fin grid0.N,
    win0_1.index t (0 : Fin 3) = 0 ∧ win0_1.index t (1 : Fin 3) = 0 ∧ win0_1.index t (2 : Fin 3) = t.val % 8)

/-- Entry `(b, d, r)` of the source tile: coordinate `d` of source `r` of row tile `t / 8`. -/
theorem source_entry (c : Dev nD) (t : Fin cfg0.N) (b : Fin 4) (d : Fin 2) (r : Fin 512) :
    (iblk m c 0 t : FVec Ideal S4x2x512 .f32) (ix3 b d r)
      = m ((c : Thread nD τ).loc main_arg0) (ix3 b (rowAt (rowTile t) r) d) := by
  obtain ⟨h0, h1, h2⟩ := idx_sources t
  unfold iblk
  rw [View.read_apply]
  show V m c main_v0 (((cfg0.win 0).blk t).view.emb (ix3 b d r)) = _
  rw [V_sources m c]
  refine transpose_apply _ _ _ _ (ix3 b (rowAt (rowTile t) r) d) fun a => ?_
  match a with
  | ⟨0, _⟩ => show b.val = win0_0.index t 0 * 4 + 1 * b.val; rw [h0]; omega
  | ⟨1, _⟩ => show d.val = win0_0.index t 1 * 2 + 1 * d.val; rw [h1]; omega
  | ⟨2, _⟩ => show 512 * (t.val / 8) + r.val = win0_0.index t 2 * 512 + 1 * r.val; rw [h2]; omega

/-- Entry `(b, d, q)` of the target tile: coordinate `d` of target `q` of column tile `t % 8`. -/
theorem target_entry (c : Dev nD) (t : Fin cfg0.N) (b : Fin 4) (d : Fin 2) (q : Fin 1024) :
    (iblk m c 1 t : FVec Ideal S4x2x1024 .f32) (ix3 b d q)
      = m ((c : Thread nD τ).loc main_arg1) (ix3 b (colAt (colTile t) q) d) := by
  obtain ⟨h0, h1, h2⟩ := idx_targets t
  unfold iblk
  rw [View.read_apply]
  show V m c main_v1 (((cfg0.win 1).blk t).view.emb (ix3 b d q)) = _
  rw [V_targets m c]
  refine transpose_apply _ _ _ _ (ix3 b (colAt (colTile t) q) d) fun a => ?_
  match a with
  | ⟨0, _⟩ => show b.val = win0_1.index t 0 * 4 + 1 * b.val; rw [h0]; omega
  | ⟨1, _⟩ => show d.val = win0_1.index t 1 * 2 + 1 * d.val; rw [h1]; omega
  | ⟨2, _⟩ => show 1024 * (t.val % 8) + q.val = win0_1.index t 2 * 1024 + 1 * q.val; rw [h2]; omega

/-- The step's distance table is tile `(t / 8, t % 8)` of the whole table of squared distances. -/
theorem tile_dist_eq (c : Dev nD) (t : Fin cfg0.N) (b : Fin 4) (r : Fin 512) (q : Fin 1024) :
    tileDist (iblk m c 0 t) (iblk m c 1 t) b r q
      = Cert.Chamfer.dist (m ((c : Thread nD τ).loc main_arg0)) (m ((c : Thread nD τ).loc main_arg1)) b
          (rowAt (rowTile t) r) (colAt (colTile t) q) := by
  unfold tileDist Cert.Chamfer.dist
  rw [source_entry m c t b 0 r, source_entry m c t b 1 r, target_entry m c t b 0 q, target_entry m c t b 1 q]

end Cert.KernelIdeal.BlockValue

end
-- ==== Proof.Steps.lean ====
/-
  What the grid leaves behind after each step, as mathematics.

  Write D(b, n, m) for the squared distance from source `n` to target `m` of batch `b`. Step `t` works on row tile
  `i = t / 8` and column tile `j = t % 8`.
  * The block of partial column minima it writes is, at target `q` of the tile, the infimum of D over the 512 sources
    of row tile `i` (`colblock_at`) — at every step, whatever the step's kind.
  * The scratch carries the running row minimum. A step replaces it by the smaller of its old contents and the
    infimum of D over the 1024 targets of column tile `j`; on `j = 0` the old contents are +∞. By induction on the
    step, after step `t` the scratch holds, for source `r` of row tile `i`, the infimum of D over the targets of column
    tiles `0 … j` (`scratch_at`): the first `j + 1` tiles.
  * On `j = 7` the row-minimum block written back is that scratch: the infimum over all 8192 targets (`rowblock_at`).
-/
import proofs.«166247_j28595892257476_2_alg».proof.Proof.Body
import proofs.«166247_j28595892257476_2_alg».proof.Proof.Blocks

set_option maxRecDepth 16384

noncomputable section

open Idealize.ShloMosaic Idealize.ShloMosaic.TcCoe Idealize.SL.Sem
open Idealize.ShloMosaic.Pipeline (Dat)

namespace Cert.KernelIdeal.StepMath

open Cert.KernelIdeal Cert.KernelIdeal.Gen Idealize.ShloMosaic.ValueIdx Cert.Chamfer
open Cert.KernelIdeal.TileValue Cert.KernelIdeal.BlockValue Cert.KernelIdeal.StepValue

variable (m : (ℓ : Loc nD τ sig) → Buf (Elt Ideal) ℓ)

/-- The squared distances from source `n` of batch `b` to every target. -/
def rowDist (c : Dev nD) (b : Fin 4) (n : Fin 8192) : Fin 8192 → EReal :=
  fun mm => Cert.Chamfer.dist (m ((c : Thread nD τ).loc main_arg0)) (m ((c : Thread nD τ).loc main_arg1)) b n mm

/-- The infimum over the targets of step `t`'s column tile, for source `r` of its row tile. -/
def tileRowMin (c : Dev nD) (t : Fin cfg0.N) (b : Fin 4) (r : Fin 512) : EReal :=
  ⨅ q : Fin 1024, rowDist m c b (rowAt (rowTile t) r) (colAt (colTile t) q)

/-- The row minima of the step's table are those infima. -/
theorem new_rowmin (c : Dev nD) (t : Fin cfg0.N) (b : Fin 4) (r : Fin 512) :
    k0_pay5 (F := Ideal) (iblk m c 0 t) (iblk m c 1 t) (ix2 b r) = tileRowMin m c t b r :=
  (rowmin_apply (iblk m c 0 t) (iblk m c 1 t) b r).trans (iInf_congr fun q => tile_dist_eq m c t b r q)

/-- The block of partial column minima step `t` writes: the infimum over the sources of its row tile. -/
theorem colblock_at (c : Dev nD) (t : Fin cfg0.N) (u : Fin 1) (b : Fin 4) (q : Fin 1024) :
    (outsAt0 m c t.val t.isLt).2.1 (ix3 u b q)
      = ⨅ r : Fin 512, rowDist m c b (rowAt (rowTile t) r) (colAt (colTile t) q) := by
  have key : (outsAt0 m c t.val t.isLt).2.1 = k0_pay2 (k0_pay4 (F := Ideal) (iblk m c 0 t) (iblk m c 1 t)) := by
    by_cases h0 : t.val % 8 = 0
    · have h1 : ¬t.val % 8 = 7 := by omega
      rw [outsAt0_A m c t h0 h1]
      dsimp only
      exact colblock_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)
    · by_cases h1 : t.val % 8 = 7
      · rw [outsAt0_C m c t h0 h1]
        dsimp only
        exact colblock_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2
      · rw [outsAt0_B m c t h0 h1]
        dsimp only
        exact colblock_mid (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2
  rw [key]
  refine (colmin_apply (k0_pay4 (F := Ideal) (iblk m c 0 t) (iblk m c 1 t)) u b q).trans ?_
  exact iInf_congr fun r => (table_apply (iblk m c 0 t) (iblk m c 1 t) b r q).trans (tile_dist_eq m c t b r q)

/-- On the first column tile the scratch ends at the smaller of +∞ and the tile's infimum. -/
theorem scratch_first_tile (c : Dev nD) (t : Fin cfg0.N) (h0 : t.val % 8 = 0) (b : Fin 4) (r : Fin 512) :
    (outsAt0 m c t.val t.isLt).2.2 (ix2 b r) = min ⊤ (tileRowMin m c t b r) := by
  have h1 : ¬t.val % 8 = 7 := by omega
  have key : (outsAt0 m c t.val t.isLt).2.2
      = k0_pay1 (F := Ideal) (k0_pay5 (F := Ideal) (iblk m c 0 t) (iblk m c 1 t)) (k0_pay3 (F := Ideal)) := by
    rw [outsAt0_A m c t h0 h1]
    dsimp only
    exact scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)
  rw [key]
  refine (update_apply _ _ (ix2 b r)).trans ?_
  rw [reset_apply, new_rowmin]

/-- On a later column tile the scratch ends at the smaller of what the step before left and the tile's infimum. -/
theorem scratch_later_tile (c : Dev nD) (t : Fin cfg0.N) (h0 : ¬t.val % 8 = 0) (b : Fin 4) (r : Fin 512) :
    (outsAt0 m c t.val t.isLt).2.2 (ix2 b r) = min ((outsAt0 m c (t.val - 1) (Nat.lt_of_le_of_lt (Nat.sub_le _ _) t.isLt)).2.2 (ix2 b r)) (tileRowMin m c t b r) := by
  have key : (outsAt0 m c t.val t.isLt).2.2
      = k0_pay1 (F := Ideal) (k0_pay5 (F := Ideal) (iblk m c 0 t) (iblk m c 1 t)) (outsAt0 m c (t.val - 1) (Nat.lt_of_le_of_lt (Nat.sub_le _ _) t.isLt)).2.2 := by
    by_cases h1 : t.val % 8 = 7
    · rw [outsAt0_C m c t h0 h1]
      dsimp only
      exact scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2
    · rw [outsAt0_B m c t h0 h1]
      dsimp only
      exact scratch_mid (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2
  rw [key]
  refine (update_apply _ _ (ix2 b r)).trans ?_
  rw [new_rowmin]

/-- On the last column tile the row-minimum block written back is the scratch. -/
theorem rowblock_eq_scratch (c : Dev nD) (t : Fin cfg0.N) (h1 : t.val % 8 = 7) :
    (outsAt0 m c t.val t.isLt).1 = (outsAt0 m c t.val t.isLt).2.2 := by
  have h0 : ¬t.val % 8 = 0 := by omega
  rw [outsAt0_C m c t h0 h1]
  dsimp only
  exact (rowblock_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2).trans
    (scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2).symm

/-- After step `n` the scratch holds, for source `r` of the step's row tile, the infimum over the targets of the
    column tiles swept so far: tiles `0 … n % 8`. By induction on the step. -/
theorem scratch_at (c : Dev nD) : ∀ (n : ℕ) (h : n < cfg0.N) (b : Fin 4) (r : Fin 512),
    (outsAt0 m c n h).2.2 (ix2 b r) = minUpTo (rowDist m c b (rowAt (rowTile ⟨n, h⟩) r)) (n % 8 + 1) := by
  intro n
  induction n using Nat.strong_induction_on with
  | _ n ih =>
    intro h b r
    have hN : cfg0.N = 128 := N_0
    by_cases h0 : n % 8 = 0
    · rw [scratch_first_tile m c ⟨n, h⟩ h0 b r, h0, minUpTo_succ _ 0 (by omega), minUpTo_zero]
      have e : colTile ⟨n, h⟩ = ⟨0, by omega⟩ := Fin.ext h0
      unfold tileRowMin
      rw [e]
    · have hlt : n - 1 < cfg0.N := Nat.lt_of_le_of_lt (Nat.sub_le _ _) h
      have e1 : rowTile ⟨n - 1, hlt⟩ = rowTile ⟨n, h⟩ := Fin.ext (by show (n - 1) / 8 = n / 8; omega)
      have e2 : (n - 1) % 8 + 1 = n % 8 := by omega
      have hprev := ih (n - 1) (by omega) hlt b r
      rw [e1, e2] at hprev
      rw [scratch_later_tile m c ⟨n, h⟩ h0 b r]
      show min ((outsAt0 m c (n - 1) hlt).2.2 (ix2 b r)) _ = _
      rw [hprev, minUpTo_succ _ (n % 8) (by omega)]
      rfl

/-- On the last column tile the row-minimum block holds, for source `r` of the row tile, the infimum over all targets. -/
theorem rowblock_at (c : Dev nD) (t : Fin cfg0.N) (h1 : t.val % 8 = 7) (b : Fin 4) (r : Fin 512) :
    (outsAt0 m c t.val t.isLt).1 (ix2 b r) = ⨅ mm : Fin 8192, rowDist m c b (rowAt (rowTile t) r) mm := by
  rw [rowblock_eq_scratch m c t h1, scratch_at m c t.val t.isLt b r, h1]
  exact minUpTo_eight _

end Cert.KernelIdeal.StepMath

end
-- ==== Proof.Tail.lean ====
/-
  The last step both programs share: the mean of the row minima plus the mean of the column minima.

  Each mean is the sum of a `[4, 8192]` array, started from 0, divided by 32768. Both programs spell it with the same
  operations and the same literals, so it is carried as ONE function of the two arrays and never opened: the two
  results are equal as soon as the arrays going in are.
-/
import Idealize.ShloMosaic.PureOps.Ideal
import Idealize.ShloMosaic.PureOps.Ideal.Laws

noncomputable section

namespace Cert.Chamfer

open Idealize.ShloMosaic

/-- mean(A) + mean(B) over `[4, 8192]` arrays, as the host computes it. -/
def meanSum (hr : (⟨2, ![4, 8192]⟩ : Shape).ReducesTo [0, 1] ⟨0, ![]⟩) (h0 : 0 < (⟨0, ![]⟩ : Shape).numel)
    (A B : FVec Ideal ⟨2, ![4, 8192]⟩ .f32) : FVec Ideal ⟨0, ![]⟩ .f32 :=
  addf (F := Ideal)
    (Host.divf (F := Ideal) (Host.reduceAdd (F := Ideal) A (constant (F := Ideal) ⟨0, ![]⟩ .f32 0x00000000#32) hr h0)
      (constant (F := Ideal) ⟨0, ![]⟩ .f32 0x47000000#32))
    (Host.divf (F := Ideal) (Host.reduceAdd (F := Ideal) B (constant (F := Ideal) ⟨0, ![]⟩ .f32 0x00000000#32) hr h0)
      (constant (F := Ideal) ⟨0, ![]⟩ .f32 0x47000000#32))

end Cert.Chamfer

end
-- ==== Proof.Arrays.lean ====
/-
  From what each grid step writes back to the two whole output arrays, and on to the final number.

  Write D(b, n, m) for the squared distance from source `n` to target `m` of batch `b`.
  * The row-minimum array `[4, 8192]` is written in 16 blocks of 512 sources, each by the last step (column tile 7) of
    its row tile; that block holds ⨅ₘ D(b, n, m) (`rowblock_at`), so the array is `rowMin`: the distance from each
    source to its nearest target (`rows_final`).
  * The partial column-minimum array `[16, 4, 8192]` is written by every step: row tile `i`, column tile `j` gets, at
    target `m` of the tile, ⨅ over the 512 sources of tile `i` of D(b, n, m) (`colblock_at`). So entry `(i, b, m)` of
    the array is the minimum over row tile `i` (`parts_final`).
  * After the grid the partial rows are combined by a minimum over `i`: the infimum over the 16 tiles of the infima
    inside a tile is the infimum over all sources, `colMin` (`colmin_of_parts`, by `iInf_rowAt`).
  * The final number is mean(rowMin) + mean(colMin) (`result_value`, `run`).
  Every block lies where its index map says — block index × block size + offset inside the block on each axis — and
  the blocks of each array tile it, so every entry is written by some step (`rows_cover`, `parts_cover`).
-/
import proofs.«166247_j28595892257476_2_alg».proof.Proof.Steps
import proofs.«166247_j28595892257476_2_alg».proof.Proof.Tail
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Idealize.ShloMosaic.ValueIdx Cert.Chamfer Cert.Chamfer.Layout
open Cert.KernelIdeal.BlockValue Cert.KernelIdeal.StepMath

variable (m : (ℓ : Loc nD τ sig) → Buf (Elt Ideal) ℓ) (ρ : Dev nD → PrngReg)

/-- The row-minimum array: each source's distance to its nearest target. -/
def rowArr (c : Dev nD) : S4x8192.Idx → EReal :=
  rowMin (m ((c : Thread nD τ).loc main_arg0)) (m ((c : Thread nD τ).loc main_arg1))

/-- The partial column-minimum array: for row tile `k 0`, each target's distance to the nearest source of the tile. -/
def partArr (c : Dev nD) : S16x4x8192.Idx → EReal :=
  fun k => ⨅ r : Fin 512, rowDist m c (k 1) (rowAt (k 0) r) (k 2)

/-! ## Where the blocks lie -/

/-- Step `t`'s row-minimum block is block `t / 8` along the source axis. -/
theorem idx_rows : ∀ t : Fin cfg0.N, win0_2.index t (0 : Fin 2) = 0 ∧ win0_2.index t (1 : Fin 2) = t.val / 8 :=
  (by decide +kernel : ∀ t : Fin grid0.N, win0_2.index t (0 : Fin 2) = 0 ∧ win0_2.index t (1 : Fin 2) = t.val / 8)

/-- Step `t`'s partial column-minimum block is row `t / 8`, block `t % 8` along the target axis. -/
theorem idx_parts : ∀ t : Fin cfg0.N,
    win0_3.index t (0 : Fin 3) = t.val / 8 ∧ win0_3.index t (1 : Fin 3) = 0 ∧ win0_3.index t (2 : Fin 3) = t.val % 8 :=
  (by decide +kernel : ∀ t : Fin grid0.N,
    win0_3.index t (0 : Fin 3) = t.val / 8 ∧ win0_3.index t (1 : Fin 3) = 0 ∧ win0_3.index t (2 : Fin 3) = t.val % 8)

/-- A block of row minima that agrees with an array on row tile `i` agrees with it entry by entry, wherever the
    entry's array position is the block position shifted by the tile. -/
theorem row_entry (G : (⟨2, ![4, 8192]⟩ : Shape).Idx → EReal) (X : (⟨2, ![4, 512]⟩ : Shape).Idx → EReal) (i : Fin 16)
    (hX : ∀ (b : Fin 4) (r : Fin 512), X (ix2 b r) = G (ix2 b (rowAt i r)))
    (y : (⟨2, ![4, 512]⟩ : Shape).Idx) (k : (⟨2, ![4, 8192]⟩ : Shape).Idx)
    (hk0 : (k 0).val = (y 0).val) (hk1 : (k 1).val = 512 * i.val + (y 1).val) : X y = G k := by
  obtain ⟨b, r, rfl⟩ : ∃ (b : Fin 4) (r : Fin 512), y = ix2 b r := ⟨y 0, y 1, eq_ix2 y⟩
  rw [hX]
  exact congrArg G (funext fun a => Fin.ext (by
    match a with
    | ⟨0, _⟩ => exact hk0.symm
    | ⟨1, _⟩ => exact hk1.symm))

/-- The same for a block of partial column minima of row tile `i`, column tile `j`. -/
theorem part_entry (G : (⟨3, ![16, 4, 8192]⟩ : Shape).Idx → EReal) (X : (⟨3, ![1, 4, 1024]⟩ : Shape).Idx → EReal)
    (i : Fin 16) (j : Fin 8)
    (hX : ∀ (u : Fin 1) (b : Fin 4) (q : Fin 1024), X (ix3 u b q) = G (ix3 i b (colAt j q)))
    (y : (⟨3, ![1, 4, 1024]⟩ : Shape).Idx) (k : (⟨3, ![16, 4, 8192]⟩ : Shape).Idx)
    (hk0 : (k 0).val = i.val) (hk1 : (k 1).val = (y 1).val) (hk2 : (k 2).val = 1024 * j.val + (y 2).val) :
    X y = G k := by
  obtain ⟨u, b, q, rfl⟩ : ∃ (u : Fin 1) (b : Fin 4) (q : Fin 1024), y = ix3 u b q := ⟨y 0, y 1, y 2, eq_ix3 y⟩
  rw [hX]
  exact congrArg G (funext fun a => Fin.ext (by
    match a with
    | ⟨0, _⟩ => exact hk0.symm
    | ⟨1, _⟩ => exact hk1.symm
    | ⟨2, _⟩ => exact hk2.symm))

/-! ## What is written back -/

/-- The block of row minima a row tile's last step writes back is its block of `rowArr`. -/
theorem rows_flushed (c : Dev nD) (t : Fin cfg0.N) (hf : (cfg0.win 2).flush t = true) :
    (dats m 0 c).flushed 2 t = ((cfg0.win 2).blk t).view.read (Elt Ideal) (rowArr m c) := by
  have h7 : t.val % 8 = 7 := (flush0_2 t).mp hf
  obtain ⟨e0, e1⟩ := idx_rows t
  show (cfg0.win 2).cut (grid0.coords t) ((dats m 0 c).after 2 t) = _
  rw [after0_2]
  funext y
  show (outsAt0 m c t.val t.isLt).1 ((cfg0.win 2).xinj (grid0.coords t) y)
    = rowArr m c (((cfg0.win 2).blk t).view.emb y)
  refine row_entry (rowArr m c) (outsAt0 m c t.val t.isLt).1 (rowTile t)
    (fun b r => rowblock_at m c t h7 b r) _ _ ?_ ?_
  · show win0_2.index t 0 * 4 + 1 * (y 0).val = (y 0).val
    rw [e0]; omega
  · show win0_2.index t 1 * 512 + 1 * (y 1).val = 512 * (t.val / 8) + (y 1).val
    rw [e1]; omega

/-- The block of partial column minima a step writes back is its block of `partArr`. -/
theorem parts_flushed (c : Dev nD) (t : Fin cfg0.N) (hf : (cfg0.win 3).flush t = true) :
    (dats m 0 c).flushed 3 t = ((cfg0.win 3).blk t).view.read (Elt Ideal) (partArr m c) := by
  obtain ⟨e0, e1, e2⟩ := idx_parts t
  show (cfg0.win 3).cut (grid0.coords t) ((dats m 0 c).after 3 t) = _
  rw [after0_3]
  funext y
  show (outsAt0 m c t.val t.isLt).2.1 ((cfg0.win 3).xinj (grid0.coords t) y)
    = partArr m c (((cfg0.win 3).blk t).view.emb y)
  refine part_entry (partArr m c) (outsAt0 m c t.val t.isLt).2.1 (rowTile t) (colTile t)
    (fun u b q => colblock_at m c t u b q) _ _ ?_ ?_ ?_
  · show win0_3.index t 0 * 1 + 1 * (y 0).val = t.val / 8
    have hy : (y 0).val < 1 := (y 0).isLt
    rw [e0]; omega
  · show win0_3.index t 1 * 4 + 1 * (y 1).val = (y 1).val
    rw [e1]; omega
  · show win0_3.index t 2 * 1024 + 1 * (y 2).val = 1024 * (t.val % 8) + (y 2).val
    rw [e2]; omega

/-! ## Every entry is written -/

theorem mem_rows (t : Fin cfg0.N) (i : S4x8192.Idx) :
    i ∈ ((cfg0.win 2).blk t).view.set ↔ ∀ a : Fin 2, win0_2.index t a * S4x512.size a ≤ (i a).val
      ∧ (i a).val < win0_2.index t a * S4x512.size a + S4x512.size a := by
  show i ∈ ((View.whole main_v2_0).slice (win0_2.rect t)).set ↔ _
  rw [View.set_slice_whole, Rect.mem_set_unit]
  exact Iff.rfl

theorem mem_parts (t : Fin cfg0.N) (i : S16x4x8192.Idx) :
    i ∈ ((cfg0.win 3).blk t).view.set ↔ ∀ a : Fin 3, win0_3.index t a * S1x4x1024.size a ≤ (i a).val
      ∧ (i a).val < win0_3.index t a * S1x4x1024.size a + S1x4x1024.size a := by
  show i ∈ ((View.whole main_v2_1).slice (win0_3.rect t)).set ↔ _
  rw [View.set_slice_whole, Rect.mem_set_unit]
  exact Iff.rfl

/-- Source `n` lies in the block written by the last step of row tile `n / 512`. -/
theorem rows_cover (i : S4x8192.Idx) :
    ∃ t : Fin cfg0.N, (cfg0.win 2).flush t = true ∧ i ∈ ((cfg0.win 2).blk t).view.set := by
  have hN : cfg0.N = 128 := N_0
  have h0 : (i 0).val < 4 := (i 0).isLt
  have h1 : (i 1).val < 8192 := (i 1).isLt
  let t : Fin cfg0.N := ⟨8 * ((i 1).val / 512) + 7, by omega⟩
  have ht : t.val = 8 * ((i 1).val / 512) + 7 := rfl
  obtain ⟨e0, e1⟩ := idx_rows t
  refine ⟨t, (flush0_2 t).mpr (by rw [ht]; omega), ?_⟩
  rw [mem_rows]
  intro a
  match a with
  | ⟨0, _⟩ =>
    show win0_2.index t 0 * 4 ≤ (i 0).val ∧ (i 0).val < win0_2.index t 0 * 4 + 4
    rw [e0]; omega
  | ⟨1, _⟩ =>
    show win0_2.index t 1 * 512 ≤ (i 1).val ∧ (i 1).val < win0_2.index t 1 * 512 + 512
    rw [e1, ht]; omega

/-- Entry `(i, b, m)` lies in the block written by the step of row tile `i` and column tile `m / 1024`. -/
theorem parts_cover (i : S16x4x8192.Idx) :
    ∃ t : Fin cfg0.N, (cfg0.win 3).flush t = true ∧ i ∈ ((cfg0.win 3).blk t).view.set := by
  have hN : cfg0.N = 128 := N_0
  have h0 : (i 0).val < 16 := (i 0).isLt
  have h1 : (i 1).val < 4 := (i 1).isLt
  have h2 : (i 2).val < 8192 := (i 2).isLt
  let t : Fin cfg0.N := ⟨8 * (i 0).val + (i 2).val / 1024, by omega⟩
  have ht : t.val = 8 * (i 0).val + (i 2).val / 1024 := rfl
  obtain ⟨e0, e1, e2⟩ := idx_parts t
  refine ⟨t, flush0_3 t, ?_⟩
  rw [mem_parts]
  intro a
  match a with
  | ⟨0, _⟩ =>
    show win0_3.index t 0 * 1 ≤ (i 0).val ∧ (i 0).val < win0_3.index t 0 * 1 + 1
    rw [e0, ht]; omega
  | ⟨1, _⟩ =>
    show win0_3.index t 1 * 4 ≤ (i 1).val ∧ (i 1).val < win0_3.index t 1 * 4 + 4
    rw [e1]; omega
  | ⟨2, _⟩ =>
    show win0_3.index t 2 * 1024 ≤ (i 2).val ∧ (i 2).val < win0_3.index t 2 * 1024 + 1024
    rw [e2, ht]; omega

/-! ## The arrays after the grid -/

theorem rows_final (c : Dev nD) : (dats m 0 c).arrAt 2 cfg0.N = rowArr m c :=
  (dats m 0 c).arrAt_eq_of_cover 2 (rowArr m c) (rows_flushed m c) rows_cover

theorem parts_final (c : Dev nD) : (dats m 0 c).arrAt 3 cfg0.N = partArr m c :=
  (dats m 0 c).arrAt_eq_of_cover 3 (partArr m c) (parts_flushed m c) parts_cover

/-- The minimum over the 16 partial rows is each target's distance to its nearest source. -/
theorem colmin_of_parts (c : Dev nD) :
    Host.reduce (FloatOps.minimumf (F := Ideal) (φ := .f32)) (partArr m c) (constant (F := Ideal) S_ .f32 0x7F800000#32)
        reducesTo_S16x4x8192_S4x8192_d0 h_S_
      = colMin (m ((c : Thread nD τ).loc main_arg0)) (m ((c : Thread nD τ).loc main_arg1)) := by
  funext i
  obtain ⟨b, q, rfl⟩ : ∃ (b : Fin 4) (q : Fin 8192), i = ix2 b q := ⟨i 0, i 1, eq_ix2 i⟩
  refine (hostMin_single (partArr m c) (constant (F := Ideal) S_ .f32 0x7F800000#32) reducesTo_S16x4x8192_S4x8192_d0
    (by decide) h_S_ Lit.inf (ix2 b q)).trans ?_
  refine Eq.trans ?_ (iInf_rowAt (fun n => Cert.Chamfer.dist (m ((c : Thread nD τ).loc main_arg0))
    (m ((c : Thread nD τ).loc main_arg1)) b n q))
  exact iInf_congr fun k => rfl

/-! ## The final number -/

/-- The host operations after the grid, applied to the two arrays the grid left. -/
theorem tail_value (c : Dev nD) :
    Pipeline.afterTail₀ cfgs (dats m) 0 (V0 m) [hostOps1] c main_v8
      = meanSum reducesTo_S4x8192_S_d0_1 h_S_ ((dats m 0 c).arrAt 2 cfg0.N)
          (Host.reduce (FloatOps.minimumf (F := Ideal) (φ := .f32)) ((dats m 0 c).arrAt 3 cfg0.N)
            (constant (F := Ideal) S_ .f32 0x7F800000#32) reducesTo_S16x4x8192_S4x8192_d0 h_S_) := by
  have e2 : Pipeline.withArrays (cfgs 0).spec c (V0 m c) (fun w => (dats m 0 c).arrAt w (cfgs 0).N) (Proc.devRef .tc main_v2_0)
      = (dats m 0 c).arrAt 2 cfg0.N :=
    Pipeline.withArrays_arr spec0 launch0.win.arr_inj c (V0 m c) (fun w => (dats m 0 c).arrAt w cfg0.N) 2
  have e3 : Pipeline.withArrays (cfgs 0).spec c (V0 m c) (fun w => (dats m 0 c).arrAt w (cfgs 0).N) (Proc.devRef .tc main_v2_1)
      = (dats m 0 c).arrAt 3 cfg0.N :=
    Pipeline.withArrays_arr spec0 launch0.win.arr_inj c (V0 m c) (fun w => (dats m 0 c).arrAt w cfg0.N) 3
  unfold Pipeline.afterTail₀
  show StableHlo.after hostOps1 _ (Proc.devRef .tc main_v8) = _
  after_results
  rw [e2, e3]
  rfl

/-- The program's result: mean(rowMin) + mean(colMin) of the two clouds. -/
theorem result_value (c : Dev nD) :
    Pipeline.afterTail₀ cfgs (dats m) 0 (V0 m) [hostOps1] c main_v8
      = meanSum reducesTo_S4x8192_S_d0_1 h_S_
          (rowMin (m ((c : Thread nD τ).loc main_arg0)) (m ((c : Thread nD τ).loc main_arg1)))
          (colMin (m ((c : Thread nD τ).loc main_arg0)) (m ((c : Thread nD τ).loc main_arg1))) := by
  rw [tail_value, rows_final, parts_final, colmin_of_parts]
  rfl

/-- Every weakly fair execution terminates with the result at that number and the two clouds unchanged. -/
theorem run : θ_run defs (onTc (τ := τ) (main (F := Ideal))) ⟨m, fun _ => 0, ρ⟩ fun r => ∀ c : Dev nD,
      r.2.mem ((c : Thread nD τ).loc main_v8)
        = meanSum reducesTo_S4x8192_S_d0_1 h_S_
            (rowMin (m ((c : Thread nD τ).loc main_arg0)) (m ((c : Thread nD τ).loc main_arg1)))
            (colMin (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v8 (Pipeline.mem_restRefs_of main_v8 (by decide) (by decide))).trans (result_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.ArrayValue

end
-- ==== Proof.RefValue.lean ====
/-
  What the reference computes, as the same function of the two clouds.

  The reference forms the whole 8192 × 8192 table per batch at once: entry `(b, n, m)` is
  (0 + Σₖ xₖ²) + (0 + Σₖ yₖ²) − 2·Σₖ xₖ·yₖ for source `n` and target `m` (`dist_stage`) — on real coordinates the
  squared distance in the other arrangement (`distRef_eq_dist`). Its two minima run along the target axis and along
  the source axis, from +∞: `rowMin` and `colMin` (`rowmin_stage`, `colmin_stage`). Its last operations are the shared
  mean-plus-mean (`result_value`).
-/
import proofs.«166247_j28595892257476_2_alg».proof.Proof.Gen.ReferenceIdeal.Read
import proofs.«166247_j28595892257476_2_alg».proof.Proof.Layout
import proofs.«166247_j28595892257476_2_alg».proof.Proof.Tail

noncomputable section

namespace Cert.ReferenceIdeal.RefValue

open Idealize.ShloMosaic Idealize.ShloMosaic.ValueIdx
open Cert.ReferenceIdeal Cert.ReferenceIdeal.Gen Cert.ReferenceIdeal.Read Cert.Chamfer Cert.Chamfer.Layout

/-! ## Which argument entries a table entry reads -/

theorem src_sq_idx (b : Fin 4) (n m : Fin 8192) (k : Fin 2) :
    idx_main_v1 (idx_main_v5 (idx_main_v7 (ix3 b n m))) k = ix3 b n k :=
  funext fun a => Fin.ext (by match a with | ⟨0, _⟩ => rfl | ⟨1, _⟩ => rfl | ⟨2, _⟩ => rfl)

theorem tgt_sq_idx (b : Fin 4) (n m : Fin 8192) (k : Fin 2) :
    idx_main_v3 (idx_main_v6 (idx_main_v8 (ix3 b n m))) k = ix3 b m k :=
  funext fun a => Fin.ext (by match a with | ⟨0, _⟩ => rfl | ⟨1, _⟩ => rfl | ⟨2, _⟩ => rfl)

theorem src_dot_idx (b : Fin 4) (n m : Fin 8192) (k : Fin 2) : lidx_main_v4 (ix3 b n m) k = ix3 b n k :=
  funext fun a => Fin.ext (by match a with | ⟨0, _⟩ => rfl | ⟨1, _⟩ => rfl | ⟨2, _⟩ => rfl)

theorem tgt_dot_idx (b : Fin 4) (n m : Fin 8192) (k : Fin 2) : ridx_main_v4 (ix3 b n m) k = ix3 b m k :=
  funext fun a => Fin.ext (by match a with | ⟨0, _⟩ => rfl | ⟨1, _⟩ => rfl | ⟨2, _⟩ => rfl)

/-- The table at `(b, n, m)`: (0 + Σₖ xₖ²) + (0 + Σₖ yₖ²) − 2·Σₖ xₖ·yₖ. -/
theorem dist_stage (x0 x1 : Cloud) (b : Fin 4) (n m : Fin 8192) :
    val_main_v12 (F := Ideal) x0 x1 (ix3 b n m) = distRef x0 x1 b n m := by
  rw [val_main_v12_apply, val_main_v9_apply, val_main_v7_apply, val_main_v5_apply, val_main_v1_apply,
    val_main_v8_apply, val_main_v6_apply, val_main_v3_apply, val_main_v11_apply, val_main_v10_apply,
    val_main_v4_apply]
  simp only [src_sq_idx, tgt_sq_idx, src_dot_idx, tgt_dot_idx, val_main_v0_apply, val_main_v2_apply,
    val_main_cst_apply, val_main_cst_0_apply, val_main_cst_1_apply]
  rfl

/-- The minimum along the target axis: each source's distance to its nearest target. -/
theorem rowmin_stage {x0 x1 : Cloud} (h0 : x0.Real) (h1 : x1.Real) : val_main_v13 (F := Ideal) x0 x1 = rowMin x0 x1 := by
  funext i
  obtain ⟨b, n, rfl⟩ : ∃ (b : Fin 4) (n : Fin 8192), i = ix2 b n := ⟨i 0, i 1, eq_ix2 i⟩
  unfold val_main_v13
  refine (hostMin_single (val_main_v12 (F := Ideal) x0 x1) (val_main_cst_2 (F := Ideal))
    reducesTo_S4x8192x8192_S4x8192_d2 (by decide) h_S_ Lit.inf (ix2 b n)).trans ?_
  show _ = ⨅ mm : Fin 8192, Cert.Chamfer.dist x0 x1 b n mm
  exact iInf_congr fun mm => ((congrArg (val_main_v12 (F := Ideal) x0 x1) (funext fun a => Fin.ext (by
    match a with | ⟨0, _⟩ => rfl | ⟨1, _⟩ => rfl | ⟨2, _⟩ => rfl))).trans (dist_stage x0 x1 b n mm)).trans
      (distRef_eq_dist h0 h1 b n mm)

/-- The minimum along the source axis: each target's distance to its nearest source. -/
theorem colmin_stage {x0 x1 : Cloud} (h0 : x0.Real) (h1 : x1.Real) : val_main_v14 (F := Ideal) x0 x1 = colMin x0 x1 := by
  funext i
  obtain ⟨b, q, rfl⟩ : ∃ (b : Fin 4) (q : Fin 8192), i = ix2 b q := ⟨i 0, i 1, eq_ix2 i⟩
  unfold val_main_v14
  refine (hostMin_single (val_main_v12 (F := Ideal) x0 x1) (val_main_cst_3 (F := Ideal))
    reducesTo_S4x8192x8192_S4x8192_d1 (by decide) h_S_ Lit.inf (ix2 b q)).trans ?_
  show _ = ⨅ n : Fin 8192, Cert.Chamfer.dist x0 x1 b n q
  exact iInf_congr fun n => ((congrArg (val_main_v12 (F := Ideal) x0 x1) (funext fun a => Fin.ext (by
    match a with | ⟨0, _⟩ => rfl | ⟨1, _⟩ => rfl | ⟨2, _⟩ => rfl))).trans (dist_stage x0 x1 b n q)).trans
      (distRef_eq_dist h0 h1 b n q)

/-- The reference's result: mean(rowMin) + mean(colMin) of the two clouds. -/
theorem result_value {x0 x1 : Cloud} (h0 : x0.Real) (h1 : x1.Real) :
    val_main_v19 (F := Ideal) x0 x1 = meanSum reducesTo_S4x8192_S_d0_1 h_S_ (rowMin x0 x1) (colMin x0 x1) := by
  show meanSum reducesTo_S4x8192_S_d0_1 h_S_ (val_main_v13 (F := Ideal) x0 x1) (val_main_v14 (F := Ideal) x0 x1) = _
  rw [rowmin_stage h0 h1, colmin_stage h0 h1]

end Cert.ReferenceIdeal.RefValue

end
-- ==== Proof.Finite.lean ====
/-
  The precondition, read back: every coordinate of both clouds is a real number.

  The precondition is the conjunction of two "all entries satisfy |x| < +∞". A conjunction of two one-bit words is 1
  only if both are; an "all" that is 1 had a 1 at every entry; and an extended real whose absolute value
  max(x, −x) lies strictly below +∞ is neither +∞ nor −∞, so it is a real number.
-/
import proofs.«166247_j28595892257476_2_alg».proof.Pre_finite_inputs
import Idealize.ShloMosaic.Lib.ReduceAll
import Idealize.ShloMosaic.Lib.ValueIdx
import proofs.«166247_j28595892257476_2_alg».proof.Proof.Spec

noncomputable section

namespace Cert.Chamfer.Finite

open Idealize.ShloMosaic Cert.Chamfer

instance : Subsingleton Cert.Pre_finite_inputs.S_.Idx := ⟨fun a b => funext fun d => d.elim0⟩

/-- An extended real with |x| < +∞ is a real number. -/
theorem real_of_abs_lt (x : EReal) (h : Ideal.cmp .olt (max x (-x)) (Ideal.ofBits .f32 0x7F800000#32) = 1#1) :
    ∃ r : ℝ, x = (r : EReal) := by
  rw [Lit.inf] at h
  have hlt : max x (-x) < ⊤ := by
    by_contra hn
    simp [Ideal.cmp, hn] at h
  induction x using EReal.rec with
  | bot => simp at hlt
  | coe r => exact ⟨r, rfl⟩
  | top => simp at hlt

/-- Under the precondition both clouds have real coordinates. -/
theorem real_of_pre [Cert.Pre_finite_inputs.Facts] (P Q : Cloud)
    (h : Cert.Pre_finite_inputs.fn (F := Ideal) P Q = fun _ => 1#1) : P.Real ∧ Q.Real := by
  have h0 := congrFun h ValueIdx.ix0
  dsimp only [Cert.Pre_finite_inputs.fn] at h0
  obtain ⟨hP, hQ⟩ := IntOp.andi_eq_one.1 h0
  exact ⟨fun i => real_of_abs_lt (P i) (Host.reduce_andi_all _ _ _ _ _ hP i),
    fun i => real_of_abs_lt (Q i) (Host.reduce_andi_all _ _ _ _ _ hQ i)⟩

end Cert.Chamfer.Finite

end
-- ==== Proof.lean ====
/-
  The Chamfer distance between two clouds of 4 × 8192 planar points: a tiled kernel against a whole-table reference.

  Both programs compute mean over sources of (squared distance to the nearest target) + mean over targets of (squared
  distance to the nearest source). They differ in three ways, none of which changes the value over the extended
  reals when the coordinates are real:
  * the squared distance is arranged as |x|² + |y|² + x₀·(−2·y₀) + x₁·(−2·y₁) by one and as
    (0 + Σ xₖ²) + (0 + Σ yₖ²) − 2·Σ xₖ·yₖ by the other — one real number (Proof/Spec.lean `distRef_eq_dist`; this is where
    the precondition is used: Proof/Finite.lean);
  * the nearest target of a source is found by sweeping the 8 target tiles with a running minimum started at +∞,
    instead of one minimum over all targets — the same infimum (Proof/Steps.lean `scratch_at`, `rowblock_at`);
  * the nearest source of a target is found as the minimum over the 16 source tiles of per-tile minima, instead of
    one minimum over all sources — the same infimum (Proof/Arrays.lean `colmin_of_parts`).
  The closing mean-plus-mean is spelled identically by both and is carried as one function (Proof/Tail.lean).

  The kernel's run, with its result array named, is Proof/Arrays.lean `run`; the reference's is its generated run read
  by Proof/RefValue.lean. Neither program changes its arguments, and the idealized kernel is the kernel's own text
  read over the extended reals (nothing was rewritten), so `preserves` asks nothing.
-/
import proofs.«166247_j28595892257476_2_alg».proof.Defs
import proofs.«166247_j28595892257476_2_alg».proof.Proof.Gen.Kernel
import proofs.«166247_j28595892257476_2_alg».proof.Proof.Gen.Kernel.Skeleton
import proofs.«166247_j28595892257476_2_alg».proof.Proof.Gen.Kernel.Launch
import proofs.«166247_j28595892257476_2_alg».proof.Proof.Gen.Kernel.Points
import proofs.«166247_j28595892257476_2_alg».proof.Proof.Gen.Kernel.Frame
import proofs.«166247_j28595892257476_2_alg».proof.Proof.Gen.KernelIdeal
import proofs.«166247_j28595892257476_2_alg».proof.Proof.Gen.KernelIdeal.Skeleton
import proofs.«166247_j28595892257476_2_alg».proof.Proof.Gen.KernelIdeal.Launch
import proofs.«166247_j28595892257476_2_alg».proof.Proof.Gen.KernelIdeal.Points
import proofs.«166247_j28595892257476_2_alg».proof.Proof.Gen.KernelIdeal.Frame
import proofs.«166247_j28595892257476_2_alg».proof.Proof.Gen.ReferenceIdeal
import proofs.«166247_j28595892257476_2_alg».proof.Proof.Gen.ReferenceIdeal.Run
import proofs.«166247_j28595892257476_2_alg».proof.Proof.Gen.ReferenceIdeal.Read
import proofs.«166247_j28595892257476_2_alg».proof.Proof.Gen.Pre_finite_inputs
import proofs.«166247_j28595892257476_2_alg».proof.Proof.Arrays
import proofs.«166247_j28595892257476_2_alg».proof.Proof.RefValue
import proofs.«166247_j28595892257476_2_alg».proof.Proof.Finite
import Idealize.ShloMosaic.Adequacy
import Idealize.ShloMosaic.Init

noncomputable section

namespace Cert.Proof

open Idealize.ShloMosaic Idealize.ShloMosaic.TcCoe Idealize.SL.Sem Cert.Chamfer

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From clouds that agree, both programs end at mean(rowMin) + mean(colMin) of the clouds. -/
theorem algebraic : Cert.algebraic_KernelIdeal_ReferenceIdeal := by
  intro m ρ m' ρ' hpre hagree
  refine ⟨fun c => meanSum Cert.KernelIdeal.Facts₀.reducesTo_S4x8192_S_d0_1 Cert.KernelIdeal.Facts₀.h_S_
      (rowMin (m ((c : Thread Cert.KernelIdeal.nD Cert.KernelIdeal.τ).loc Cert.KernelIdeal.main_arg0))
        (m ((c : Thread Cert.KernelIdeal.nD Cert.KernelIdeal.τ).loc Cert.KernelIdeal.main_arg1)))
      (colMin (m ((c : Thread Cert.KernelIdeal.nD Cert.KernelIdeal.τ).loc Cert.KernelIdeal.main_arg0))
        (m ((c : Thread Cert.KernelIdeal.nD Cert.KernelIdeal.τ).loc Cert.KernelIdeal.main_arg1))),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨hP, hQ⟩ := Cert.Chamfer.Finite.real_of_pre _ _ (hpre c)
  rw [Cert.ReferenceIdeal.Read.val_main_v19_eq, (hagree c).1, (hagree c).2]
  exact Cert.ReferenceIdeal.RefValue.result_value hP hQ

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
